-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S128x128x512 : Shape := ⟨3, ![128, 128, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S128x128x512 : S_.BroadcastsInDim S128x128x512 (![] : Fin 0 → Fin S128x128x512.rank)
  reducesTo_S128x128x512_S_d0_1_2 : S128x128x512.ReducesTo [0, 1, 2] S_

variable [Facts]

def fn {F : FTy → Type} [FloatOps F] (main_arg0 : FVec F S2048x512 .f32) (main_arg1 : FVec F S128x128x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S128x128x512 .f32 := Host.absf main_arg1
  let main_cst_0 : FVec F S_ .f32 := constant S_ .f32 0x7F800000#32
  let main_v5 : FVec F S128x128x512 .f32 := broadcastInDim S128x128x512 ![] bcast_S_S128x128x512 main_cst_0
  let main_v6 : IVec S128x128x512 1 := cmpf .olt main_v4 main_v5
  let main_c_1 : IVec S_ 1 := constantI S_ 1 1#1
  let main_v7 : IVec S_ 1 := (fun x v => Host.reduce IntOp.andi x v reducesTo_S128x128x512_S_d0_1_2 h_S_) main_v6 main_c_1
  let main_v8 : IVec S_ 1 := andi main_v3 main_v7
  main_v8
-- ==== Kernel.lean ====
abbrev S2048x512 : Shape := ⟨2, ![2048, 512]⟩
abbrev S128x128x512 : Shape := ⟨3, ![128, 128, 512]⟩
abbrev S16384x512 : Shape := ⟨2, ![16384, 512]⟩
abbrev S_ : Shape := ⟨0, ![]⟩
abbrev S16384 : Shape := ⟨1, ![16384]⟩
abbrev S1x16384 : Shape := ⟨2, ![1, 16384]⟩
abbrev S2048x16384 : Shape := ⟨2, ![2048, 16384]⟩
abbrev S256x512 : Shape := ⟨2, ![256, 512]⟩
abbrev S4096x512 : Shape := ⟨2, ![4096, 512]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S2048x128x128 : Shape := ⟨3, ![2048, 128, 128]⟩

abbrev nBuf : Space → Nat
  | .hbm => 9
  | .vmem => 8
  | .smem => 0
  | _ => 0

abbrev bufTy : (tb : Table) → Fin (tcTables nBuf tb) → BufTy
  | .hbm, ⟨0, _⟩ => ⟨S2048x512, .f32⟩
  | .hbm, ⟨1, _⟩ => ⟨S128x128x512, .f32⟩
  | .hbm, ⟨2, _⟩ => ⟨S16384x512, .f32⟩
  | .hbm, ⟨3, _⟩ => ⟨S16384x512, .f32⟩
  | .hbm, ⟨4, _⟩ => ⟨S_, .f32⟩
  | .hbm, ⟨5, _⟩ => ⟨S16384, .f32⟩
  | .hbm, ⟨6, _⟩ => ⟨S1x16384, .f32⟩
  | .hbm, ⟨7, _⟩ => ⟨S2048x16384, .f32⟩
  | .hbm, ⟨8, _⟩ => ⟨S2048x128x128, .f32⟩
  | .local _ .vmem, ⟨0, _⟩ => ⟨S256x512, .f32⟩
  | .local _ .vmem, ⟨1, _⟩ => ⟨S256x512, .f32⟩
  | .local _ .vmem, ⟨2, _⟩ => ⟨S4096x512, .f32⟩
  | .local _ .vmem, ⟨3, _⟩ => ⟨S4096x512, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S128x128x512_S16384x512 : S128x128x512.ShapeCasts S16384x512
  reducesTo_S16384x512_S16384_d1 : S16384x512.ReducesTo [1] S16384
  h_S_ : 0 < S_.numel
  shapeCasts_S16384_S1x16384 : S16384.ShapeCasts S1x16384
  inb_S256x512_S256x512_0_0 : ∀ a, (![0, 0] : Fin 2 → Nat) a + S256x512.size a ≤ S256x512.size a
  h_S256x512 : 0 < S256x512.numel
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  reduces_S256x512_S256 : S256x512.Reduces [1] S256
  shapeCasts_S256_S256x1 : S256.ShapeCasts S256x1
  bitsLt_bf16_f32 : FTy.bits .bf16 < FTy.bits .f32
  broadcasts_S256x1_S256x4096 : S256x1.Broadcasts S256x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  shapeCasts_S2048x16384_S2048x128x128 : S2048x16384.ShapeCasts S2048x128x128
  dot_S256x512_S4096x512_S256x4096_1_1_0_0_n_n_wf : DotDims.WF S256x512 S4096x512 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S2048x512.size a
  hwx0_0 : ∀ i : grid0.Coords, EltTy.bits .f32 = 32 ∨ (Rect.block (s := S2048x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S16384x512.size a
  hwx0_1 : ∀ i : grid0.Coords, EltTy.bits .f32 = 32 ∨ (Rect.block (s := S16384x512) S4096x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x16384.size a
  hwx0_2 : ∀ i : grid0.Coords, EltTy.bits .f32 = 32 ∨ (Rect.block (s := S1x16384) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S2048x16384.size a
  hwx0_3 : ∀ i : grid0.Coords, EltTy.bits .f32 = 32 ∨ (Rect.block (s := S2048x16384) S256x4096.size (cc0_transform_3 i) (hinb0_3 i)).WholeWords (EltTy.packing .f32)

variable [Facts₀]

def dot_S256x512_S4096x512_S256x4096_1_1_0_0_n_n : DotDims S256x512 S4096x512 S256x4096 where
  lhsContracting := [1]
  rhsContracting := [1]
  lhsNonContracting := [0]
  rhsNonContracting := [0]
  lhsBatch := []
  rhsBatch := []
  wf := dot_S256x512_S4096x512_S256x4096_1_1_0_0_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x512 : Shape := ⟨2, ![2048, 512]⟩
abbrev S128x128x512 : Shape := ⟨3, ![128, 128, 512]⟩
abbrev S16384x512 : Shape := ⟨2, ![16384, 512]⟩
abbrev S_ : Shape := ⟨0, ![]⟩
abbrev S2048 : Shape := ⟨1, ![2048]⟩
abbrev S16384 : Shape := ⟨1, ![16384]⟩
abbrev S2048x16384 : Shape := ⟨2, ![2048, 16384]⟩
abbrev S2048x1 : Shape := ⟨2, ![2048, 1]⟩
abbrev S1x16384 : Shape := ⟨2, ![1, 16384]⟩
abbrev S2048x128x128 : Shape := ⟨3, ![2048, 128, 128]⟩

abbrev nBuf : Space → Nat
  | .hbm => 35
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S128x128x512, .f32⟩
  | .hbm, ⟨2, _⟩ => ⟨S16384x512, .f32⟩
  | .hbm, ⟨3, _⟩ => ⟨S2048x512, .f32⟩
  | .hbm, ⟨4, _⟩ => ⟨S_, .f32⟩
  | .hbm, ⟨5, _⟩ => ⟨S2048, .f32⟩
  | .hbm, ⟨6, _⟩ => ⟨S16384x512, .f32⟩
  | .hbm, ⟨7, _⟩ => ⟨S_, .f32⟩
  | .hbm, ⟨8, _⟩ => ⟨S16384, .f32⟩
  | .hbm, ⟨9, _⟩ => ⟨S2048x16384, .f32⟩
  | .hbm, ⟨10, _⟩ => ⟨S2048x1, .f32⟩
  | .hbm, ⟨11, _⟩ => ⟨S1x16384, .f32⟩
  | .hbm, ⟨12, _⟩ => ⟨S2048x16384, .f32⟩
  | .hbm, ⟨13, _⟩ => ⟨S2048x16384, .f32⟩
  | .hbm, ⟨14, _⟩ => ⟨S2048x16384, .f32⟩
  | .hbm, ⟨15, _⟩ => ⟨S_, .f32⟩
  | .hbm, ⟨16, _⟩ => ⟨S2048x16384, .f32⟩
  | .hbm, ⟨17, _⟩ => ⟨S2048x16384, .f32⟩
  | .hbm, ⟨18, _⟩ => ⟨S2048x16384, .f32⟩
  | .hbm, ⟨19, _⟩ => ⟨S_, .f32⟩
  | .hbm, ⟨20, _⟩ => ⟨S2048x16384, .f32⟩
  | .hbm, ⟨21, _⟩ => ⟨S2048x16384, .f32⟩
  | .hbm, ⟨22, _⟩ => ⟨S2048x16384, .f32⟩
  | .hbm, ⟨23, _⟩ => ⟨S_, .f32⟩
  | .hbm, ⟨24, _⟩ => ⟨S2048x16384, .f32⟩
  | .hbm, ⟨25, _⟩ => ⟨S2048x16384, .f32⟩
  | .hbm, ⟨26, _⟩ => ⟨S2048x16384, .f32⟩
  | .hbm, ⟨27, _⟩ => ⟨S_, .f32⟩
  | .hbm, ⟨28, _⟩ => ⟨S2048x16384, .f32⟩
  | .hbm, ⟨29, _⟩ => ⟨S2048x16384, .f32⟩
  | .hbm, ⟨30, _⟩ => ⟨S_, .f32⟩
  | .hbm, ⟨31, _⟩ => ⟨S2048x16384, .f32⟩
  | .hbm, ⟨32, _⟩ => ⟨S2048x16384, .f32⟩
  | .hbm, ⟨33, _⟩ => ⟨S2048x16384, .f32⟩
  | .hbm, ⟨34, _⟩ => ⟨S2048x128x128, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  shapeCasts_S128x128x512_S16384x512 : S128x128x512.ShapeCasts S16384x512
  reducesTo_S2048x512_S2048_d1 : S2048x512.ReducesTo [1] S2048
  h_S_ : 0 < S_.numel
  reducesTo_S16384x512_S16384_d1 : S16384x512.ReducesTo [1] S16384
  bcast_S2048_S2048x1_0 : S2048.BroadcastsInDim S2048x1 (![0] : Fin 1 → Fin S2048x1.rank)
  bcast_S16384_S1x16384_1 : S16384.BroadcastsInDim S1x16384 (![1] : Fin 1 → Fin S1x16384.rank)
  bcast_S2048x1_S2048x16384_0_1 : S2048x1.BroadcastsInDim S2048x16384 (![0, 1] : Fin 2 → Fin S2048x16384.rank)
  bcast_S1x16384_S2048x16384_0_1 : S1x16384.BroadcastsInDim S2048x16384 (![0, 1] : Fin 2 → Fin S2048x16384.rank)
  bcast_S_S2048x16384 : S_.BroadcastsInDim S2048x16384 (![] : Fin 0 → Fin S2048x16384.rank)
  shapeCasts_S2048x16384_S2048x128x128 : S2048x16384.ShapeCasts S2048x128x128
  dot_S2048x512_S16384x512_S2048x16384_1_1_0_0_n_n_wf : DotDims.WF S2048x512 S16384x512 S2048x16384 [1] [1] [0] [0] [] []

variable [Facts₀]

def dot_S2048x512_S16384x512_S2048x16384_1_1_0_0_n_n : DotDims S2048x512 S16384x512 S2048x16384 where
  lhsContracting := [1]
  rhsContracting := [1]
  lhsNonContracting := [0]
  rhsNonContracting := [0]
  lhsBatch := []
  rhsBatch := []
  wf := dot_S2048x512_S16384x512_S2048x16384_1_1_0_0_n_n_wf

class Facts : Prop extends Facts₀ where

variable [Facts]
-- ==== Proof.CimSpec.lean ====
/-
  The correntropy-induced distance between every input row and every codebook row, as one function of the two arrays.

  For an input `x` of 2048 rows and a codebook `w` of 16384 rows, both of width 512, entry (b, n) of the result is
      sqrt (1 - exp (-(max (|x_b|^2 + |w_n|^2 - 2 <x_b, w_n>) 0) / 2) + eps),
  the squared distance between the two rows written through its expansion, clamped below at zero, with the float words of
  1, 2, 0 and eps kept as the words the two programs spell. `rowSq` is a row's sum of squares, `rowDot` the inner product
  of two rows, `cimOf` the scalar map from these three numbers to the entry. One program negates by `0 - y` and halves by
  a product with the word of 1/2, the other negates and divides by the word of 2: on the extended reals these are the same
  number, at the infinities too (`cimOf_negate_halve`). Nothing here depends on a program.
-/
import Idealize.ShloMosaic.Lib.ValueIdx
import Idealize.ShloMosaic.PureOps.Ideal.Laws

noncomputable section

namespace Cert.Cim

open Idealize.ShloMosaic Idealize.ShloMosaic.ValueIdx

/-- The sum of the squares of row `r` of an array of width 512. -/
def rowSq {n : Nat} (a : (⟨2, ![n, 512]⟩ : Shape).Idx → EReal) (r : Fin n) : EReal :=
  ∑ k : Fin 512, a (ix2 r k) * a (ix2 r k)

/-- The inner product of row `r` of one array of width 512 with row `s` of another. -/
def rowDot {n n' : Nat} (a : (⟨2, ![n, 512]⟩ : Shape).Idx → EReal) (b : (⟨2, ![n', 512]⟩ : Shape).Idx → EReal)
    (r : Fin n) (s : Fin n') : EReal :=
  ∑ k : Fin 512, a (ix2 r k) * b (ix2 s k)

/-- From a row's squared norm `a`, a codebook row's squared norm `b` and their inner product `c`: the distance
    `sqrt (1 - exp (-(max (a + b - 2 c) 0) / 2) + eps)`. -/
def cimOf (a b c : EReal) : EReal :=
  Ideal.sqrt (Ideal.ofBits .f32 0x3F800000#32
      - Ideal.exp (Ideal.div (-(max (a + b - Ideal.ofBits .f32 0x40000000#32 * c) (Ideal.ofBits .f32 0x00000000#32)))
          (Ideal.ofBits .f32 0x40000000#32))
    + Ideal.ofBits .f32 0x322BCC77#32)

/-- The word of `2.0` is the real number 2. -/
theorem ofBits_two : Ideal.ofBits .f32 0x40000000#32 = ((2 : ℝ) : EReal) := by
  simp [Ideal.ofBits, Ideal.ieee, -EReal.coe_mul]; norm_num

/-- The word of `0.5` is the real number 1/2. -/
theorem ofBits_half : Ideal.ofBits .f32 0x3F000000#32 = ((1 / 2 : ℝ) : EReal) := by
  simp [Ideal.ofBits, Ideal.ieee, -EReal.coe_mul]; norm_num

/-- `(0 - y) * (1/2) = (-y) / 2` on every extended real. -/
theorem negate_halve (y : EReal) :
    (Ideal.ofBits .f32 0x00000000#32 - y) * Ideal.ofBits .f32 0x3F000000#32
      = Ideal.div (-y) (Ideal.ofBits .f32 0x40000000#32) := by
  rw [Ideal.ofBits_zero_f32, zero_sub, ofBits_half, ofBits_two, Ideal.div_coe (by norm_num : (2 : ℝ) ≠ 0)]

/-- The same distance with the negation spelt `0 - y` and the halving spelt as a product with the word of 1/2. -/
theorem cimOf_negate_halve (a b c : EReal) :
    Ideal.sqrt (Ideal.ofBits .f32 0x3F800000#32
        - Ideal.exp ((Ideal.ofBits .f32 0x00000000#32
            - max (a + b - Ideal.ofBits .f32 0x40000000#32 * c) (Ideal.ofBits .f32 0x00000000#32))
          * Ideal.ofBits .f32 0x3F000000#32)
      + Ideal.ofBits .f32 0x322BCC77#32) = cimOf a b c := by
  rw [negate_halve]; rfl

/-- The distance array: entry (b, n) from row `b` of `x` and row `n` of `w`. -/
def cim (x : (⟨2, ![2048, 512]⟩ : Shape).Idx → EReal) (w : (⟨2, ![16384, 512]⟩ : Shape).Idx → EReal) :
    (⟨2, ![2048, 16384]⟩ : Shape).Idx → EReal := fun i =>
  cimOf (rowSq x (i 0 : Fin 2048)) (rowSq w (i 1 : Fin 16384)) (rowDot x w (i 0 : Fin 2048) (i 1 : Fin 16384))

end Cert.Cim

end
-- ==== Proof.LibKeepdims.lean ====
/-
  Layout operations of small shapes read at an index, for row-wise reductions kept as a column and for a vector used as a
  one-row matrix; the float word of minus infinity; the host's exponential and logarithm at an index.

  A row-wise reduction of an `a × b` array (a maximum, a sum) is a vector of `a` entries; to combine it with the array again it
  is cast or broadcast to a column `a × 1` and the column is broadcast along the rows to `a × b`. Read at (p, c), each of these
  is the vector's entry `p`. A vector of `n` entries reshaped to a one-row matrix `1 × n` is the same as the vector broadcast
  along axis 1 of that shape. None of this depends on a program.
-/
import Idealize.ShloMosaic.Lib.Pipeline.Value
import Idealize.ShloMosaic.Lib.ValueIdx
import Idealize.ShloMosaic.PureOps.Ideal.Laws

noncomputable section

namespace Cert.Gcn

open Idealize.ShloMosaic Idealize.ShloMosaic.ValueIdx

/-! ## A column of row values: the keepdims cast and its broadcast along the rows -/

section Columns
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array broadcast in dimension 0 to `[a, 1]` reads, at `(i, u)`, the operand at `i`. -/
theorem broadcastInDim_a_a1_apply {a : ℕ} (hbc : (⟨1, ![a]⟩ : Shape).BroadcastsInDim ⟨2, ![a, 1]⟩ ![0])
    (x : (⟨1, ![a]⟩ : Shape).Idx → α) (i : Fin a) (u : Fin 1) :
    broadcastInDim ⟨2, ![a, 1]⟩ ![0] hbc x (ix2 i u) = x (ix1 i) := by
  refine broadcastInDim_apply ![0] hbc x (ix2 i u) (ix1 i) fun ax => ?_
  match ax with
  | ⟨0, _⟩ =>
    show i.val = if a = 1 then 0 else i.val
    split
    · have := i.isLt; omega
    · rfl

/-- An `[a, 1]` array broadcast in dimensions (0, 1) to `[a, b]` reads, at `(p, c)`, the operand's one column at row `p`. -/
theorem broadcastInDim_a1_ab_apply {a b : ℕ} (hbc : (⟨2, ![a, 1]⟩ : Shape).BroadcastsInDim ⟨2, ![a, b]⟩ ![0, 1])
    (v : (⟨2, ![a, 1]⟩ : Shape).Idx → α) (p : Fin a) (c : Fin b) :
    broadcastInDim ⟨2, ![a, b]⟩ ![0, 1] hbc v (ix2 p c) = v (ix2 p (0 : Fin 1)) := by
  refine broadcastInDim_apply ![0, 1] hbc v (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## A vector as a one-row matrix -/

/-- A vector of `n` entries reshaped to one row is the vector broadcast along axis 1 of a one-row matrix. -/
theorem reshape_row_eq_broadcast {n : Nat} (x : (⟨1, ![n]⟩ : Shape).Idx → EReal)
    (h : (⟨1, ![n]⟩ : Shape).ShapeCasts ⟨2, ![1, n]⟩) (h' : (⟨1, ![n]⟩ : Shape).BroadcastsInDim ⟨2, ![1, n]⟩ ![1]) :
    shapeCast ⟨2, ![1, n]⟩ x h = broadcastInDim ⟨2, ![1, n]⟩ ![1] h' x := by
  funext i
  obtain ⟨a, b, rfl⟩ : ∃ (a : Fin 1) (b : Fin n), i = ix2 a b := ⟨i 0, i 1, eq_ix2 i⟩
  have e1 := shapeCast_apply x h (ix2 a b) (ix1 b) (by
    rw [Shape.rowMajor_val_two, Shape.rowMajor_val_one]
    have := a.isLt
    show b.val = a.val * n + b.val
    have : a.val = 0 := by omega
    rw [this]; omega)
  have e2 := broadcastInDim_apply ![1] h' x (ix2 a b) (ix1 b) (by
    intro d
    match d with
    | ⟨0, _⟩ =>
      show b.val = if n = 1 then 0 else b.val
      split
      · have := b.isLt; omega
      · rfl)
  exact e1.trans e2.symm

/-! ## Values on the extended reals -/

/-- The word of `−∞` at f32 is the extended reals' bottom. -/
theorem ofBits_negInf_f32 : Ideal.ofBits .f32 0xFF800000#32 = ⊥ := by simp [Ideal.ofBits, Ideal.ieee]

/-- The host's exponential of an array at an index is the exponential of the entry. -/
theorem hostExp_apply {s : Shape} (v : FVec Ideal s .f32) (i : s.Idx) : Host.exp v i = Ideal.exp (v i) := rfl

/-- The host's logarithm of an array at an index is the logarithm of the entry. -/
theorem hostLog_apply {s : Shape} (v : FVec Ideal s .f32) (i : s.Idx) : Host.log v i = Ideal.log (v i) := rfl

end Cert.Gcn

end
-- ==== Proof.BlockBody.lean ====
/-
  What the kernel's body computes on one grid cell, entry by entry.

  A cell holds 256 input rows `v0`, 4096 codebook rows `v1` and the 4096 codebook rows' sums of squares `v3` (one row of
  4096 numbers, computed before the kernel). The body sums the squares of each input row and keeps the sums as a column,
  multiplies the 256 rows by the 4096 codebook rows transposed (into a zero accumulator, after a change of float format
  that is the identity on extended reals), lays the column down the columns and the row of codebook sums along the rows, and
  applies the scalar map. Entry (p, q) of the cell's result is therefore the distance of `CimSpec` from input row `p`'s sum of
  squares, entry `q` of the codebook sums, and the inner product of input row `p` with codebook row `q`.
-/
import proofs.«180959_j64536178590269_2_alg».proof.Proof.Gen.KernelIdeal.Skeleton
import proofs.«180959_j64536178590269_2_alg».proof.Proof.CimSpec
import proofs.«180959_j64536178590269_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.Cim.Body

open Idealize.ShloMosaic Idealize.ShloMosaic.ValueIdx
open Cert.KernelIdeal Cert.KernelIdeal.Gen

/-- The column of the input rows' sums of squares, laid down the columns of the cell: entry (p, q) is row `p`'s sum. -/
theorem rowSums_block (v0 : FVec Ideal S256x512 .f32) (p : Fin 256) (q : Fin 4096) :
    broadcastTo S256x4096
        (shapeCast S256x1
          (multiReduction .add [1] S256 (mulf v0 v0) 0x00000000#32 reduces_S256x512_S256 (.inl rfl) rfl)
          shapeCasts_S256_S256x1)
        broadcasts_S256x1_S256x4096 (ix2 p q)
      = rowSq v0 p := by
  refine (Cert.Gcn.broadcastTo_a1_ab_apply _ _ p q).trans ?_
  refine (Cert.Gcn.shapeCast_a_a1_apply _ _ p (0 : Fin 1)).trans ?_
  refine (Ideal.multiReduction_add_single (mulf v0 v0) 0x00000000#32 reduces_S256x512_S256 (.inl rfl) rfl (ix1 p)).trans ?_
  unfold rowSq
  refine Finset.sum_congr rfl fun k _ => ?_
  exact congrArg (fun j => v0 j * v0 j)
    (funext fun a => Fin.ext (by match a with | ⟨0, _⟩ => rfl | ⟨1, _⟩ => rfl))

/-- The row of codebook sums laid along the rows of the cell: entry (p, q) is entry `q` of the row. -/
theorem codeSums_block (v3 : FVec Ideal S1x4096 .f32) (p : Fin 256) (q : Fin 4096) :
    broadcastTo S256x4096 (shapeCast S1x4096 v3 shapeCasts_S1x4096_S1x4096) broadcasts_S1x4096_S256x4096 (ix2 p q)
      = v3 (ix2 (0 : Fin 1) q) := by
  rw [shapeCast_self]
  exact broadcastTo_1b_ab_apply v3 _ p q

/-- The left operand's index at output `i` and contraction index `c`: its row coordinate is the output's row … -/
theorem lhs_row (i : S256x4096.Idx) (c : dot_S256x512_S4096x512_S256x4096_1_1_0_0_n_n.contr.Idx) : (dot_S256x512_S4096x512_S256x4096_1_1_0_0_n_n.lhsIdx i c 0).val = (i 0).val := by
  unfold DotDims.lhsIdx
  rw [dif_neg (show ¬(0 : Fin S256x512.rank) ∈ dot_S256x512_S4096x512_S256x4096_1_1_0_0_n_n.lhsBatch by decide),
    dif_pos (show (0 : Fin S256x512.rank) ∈ dot_S256x512_S4096x512_S256x4096_1_1_0_0_n_n.lhsNonContracting by decide)]
  rfl
/-- … and its column coordinate the contraction coordinate. -/
theorem lhs_col (i : S256x4096.Idx) (c : dot_S256x512_S4096x512_S256x4096_1_1_0_0_n_n.contr.Idx) : (dot_S256x512_S4096x512_S256x4096_1_1_0_0_n_n.lhsIdx i c 1).val = (c ⟨0, by decide⟩).val :=
  dot_S256x512_S4096x512_S256x4096_1_1_0_0_n_n.lhsIdx_val_of_single rfl i c
/-- The right operand's index: its row coordinate is the output's column … -/
theorem rhs_row (i : S256x4096.Idx) (c : dot_S256x512_S4096x512_S256x4096_1_1_0_0_n_n.contr.Idx) : (dot_S256x512_S4096x512_S256x4096_1_1_0_0_n_n.rhsIdx i c 0).val = (i 1).val := by
  unfold DotDims.rhsIdx
  rw [dif_neg (show ¬(0 : Fin S4096x512.rank) ∈ dot_S256x512_S4096x512_S256x4096_1_1_0_0_n_n.rhsBatch by decide),
    dif_pos (show (0 : Fin S4096x512.rank) ∈ dot_S256x512_S4096x512_S256x4096_1_1_0_0_n_n.rhsNonContracting by decide)]
  rfl
/-- … and its column coordinate the contraction coordinate. -/
theorem rhs_col (i : S256x4096.Idx) (c : dot_S256x512_S4096x512_S256x4096_1_1_0_0_n_n.contr.Idx) : (dot_S256x512_S4096x512_S256x4096_1_1_0_0_n_n.rhsIdx i c 1).val = (c ⟨0, by decide⟩).val :=
  dot_S256x512_S4096x512_S256x4096_1_1_0_0_n_n.rhsIdx_val_of_single rfl i c

/-- So at output (p, q) and contraction coordinate `k` the product reads (p, k) on the left … -/
theorem lhs_coords (i : S256x4096.Idx) (k : Fin 512) :
    dot_S256x512_S4096x512_S256x4096_1_1_0_0_n_n.lhsIdx i ((contrEquiv1 dot_S256x512_S4096x512_S256x4096_1_1_0_0_n_n 512 rfl rfl).symm k) = ix2 (i 0 : Fin 256) k := by
  have hk := contrEquiv1_symm_val dot_S256x512_S4096x512_S256x4096_1_1_0_0_n_n 512 rfl rfl k
  refine funext fun a => Fin.ext ?_
  match a with
  | ⟨0, _⟩ => exact lhs_row _ _
  | ⟨1, _⟩ => exact (lhs_col _ _).trans hk

/-- … and (q, k) on the right. -/
theorem rhs_coords (i : S256x4096.Idx) (k : Fin 512) :
    dot_S256x512_S4096x512_S256x4096_1_1_0_0_n_n.rhsIdx i ((contrEquiv1 dot_S256x512_S4096x512_S256x4096_1_1_0_0_n_n 512 rfl rfl).symm k) = ix2 (i 1 : Fin 4096) k := by
  have hk := contrEquiv1_symm_val dot_S256x512_S4096x512_S256x4096_1_1_0_0_n_n 512 rfl rfl k
  refine funext fun a => Fin.ext ?_
  match a with
  | ⟨0, _⟩ => exact rhs_row _ _
  | ⟨1, _⟩ => exact (rhs_col _ _).trans hk

/-- The cell's product into a zero accumulator: entry (p, q) is the inner product of input row `p` and codebook row `q`. -/
theorem cross_block (v0 : FVec Ideal S256x512 .f32) (v1 : FVec Ideal S4096x512 .f32) (p : Fin 256) (q : Fin 4096) :
    matmul dot_S256x512_S4096x512_S256x4096_1_1_0_0_n_n none (truncf .bf16 v0 bitsLt_bf16_f32)
        (truncf .bf16 (shapeCast S4096x512 v1 shapeCasts_S4096x512_S4096x512) bitsLt_bf16_f32)
        (constant S256x4096 .f32 0x00000000#32) (ix2 p q)
      = rowDot v0 v1 p q := by
  rw [shapeCast_self]
  refine (Ideal.matmul_constant_zero_apply dot_S256x512_S4096x512_S256x4096_1_1_0_0_n_n none _ _ (ix2 p q)).trans ?_
  rw [← Equiv.sum_comp (contrEquiv1 dot_S256x512_S4096x512_S256x4096_1_1_0_0_n_n 512 rfl rfl).symm]
  unfold rowDot
  refine Finset.sum_congr rfl fun k _ => ?_
  rw [lhs_coords, rhs_coords]
  rfl

/-- The body's stored value at entry (p, q) of the cell. -/
theorem pay_apply (v0 : FVec Ideal S256x512 .f32) (v1 : FVec Ideal S4096x512 .f32) (v3 : FVec Ideal S1x4096 .f32)
    (p : Fin 256) (q : Fin 4096) :
    k0_pay1 (F := Ideal) v0 v1 v3 (ix2 p q) = cimOf (rowSq v0 p) (v3 (ix2 (0 : Fin 1) q)) (rowDot v0 v1 p q) := by
  rw [← cimOf_negate_halve, ← rowSums_block v0 p q, ← codeSums_block v3 p q, ← cross_block v0 v1 p q]
  rfl

end Cert.Cim.Body

end
-- ==== Proof.KernelArray.lean ====
/-
  The kernel's program computes the distance array of `CimSpec`, reshaped.

  Before the kernel runs, the host reshapes the codebook to 16384 rows and sums the squares of each row into one row of 16384
  numbers. The kernel's grid has 4 × 8 cells: cell (j, i) reads input rows 256 i … 256 i + 255, codebook rows
  4096 j … 4096 j + 4095 and the matching 4096 entries of the row of sums, and writes rows 256 i …, columns 4096 j … of the
  2048 × 16384 result. By `BlockBody` the entry (p, q) of the cell is the distance built from input row 256 i + p and codebook
  row 4096 j + q, which is entry (256 i + p, 4096 j + q) of the distance array; the 32 cells tile the result, so the result is
  the whole distance array. The host then reshapes it to 2048 × 128 × 128.
-/
import proofs.«180959_j64536178590269_2_alg».proof.Proof.Gen.KernelIdeal.Frame
import proofs.«180959_j64536178590269_2_alg».proof.Proof.BlockBody
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

set_option maxRecDepth 16384

noncomputable section

namespace Cert.Cim.Kernel

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-! ## What the host leaves for the kernel -/

/-- The codebook as the kernel finds it: the argument reshaped to 16384 rows. -/
theorem V_codebook (c : Dev nD) :
    V m c main_v0 = shapeCast S16384x512 (m ((c : Thread nD τ).loc main_arg1)) shapeCasts_S128x128x512_S16384x512 := by
  show StableHlo.after hostOps0 (fun b => m (c, b)) (Proc.devRef .tc main_v0) = _
  after_results
  rfl

/-- The row of sums as the kernel finds it: each codebook row's sum of squares, from the word of zero, as one row. -/
theorem V_codeSums (c : Dev nD) :
    V m c main_v3 = shapeCast S1x16384
      (Host.reduceAdd (F := Ideal) (mulf (V m c main_v0) (V m c main_v0)) (constant (F := Ideal) S_ .f32 0x00000000#32)
        reducesTo_S16384x512_S16384_d1 h_S_) shapeCasts_S16384_S1x16384 := by
  rw [V_codebook]
  show StableHlo.after hostOps0 (fun b => m (c, b)) (Proc.devRef .tc main_v3) = _
  after_results
  rfl

/-- Entry `n` of a row of sums of squares computed that way from an array `W` of 16384 rows. -/
theorem codeSums_entry (W : FVec Ideal S16384x512 .f32) (n : Fin 16384) :
    shapeCast S1x16384
        (Host.reduceAdd (F := Ideal) (mulf W W) (constant (F := Ideal) S_ .f32 0x00000000#32)
          reducesTo_S16384x512_S16384_d1 h_S_) shapeCasts_S16384_S1x16384 (ix2 (0 : Fin 1) n)
      = rowSq W n := by
  refine (shapeCast_a_1a_apply _ _ (0 : Fin 1) n).trans ?_
  simp only [Host.reduceAdd, Ideal.hostReduceAdd_def]
  rw [Ideal.hostReduceAdd_single reducesTo_S16384x512_S16384_d1 (by decide)]
  show Ideal.ofBits .f32 0x00000000#32 + _ = _
  rw [Ideal.ofBits_zero_f32, zero_add]
  unfold rowSq
  refine Finset.sum_congr rfl fun k _ => ?_
  exact congrArg (fun j => W j * W j)
    (funext fun a => Fin.ext (by match a with | ⟨0, _⟩ => rfl | ⟨1, _⟩ => rfl))

/-! ## Which rows and columns a cell touches -/

theorem hz : (![0, 0] : Fin 2 → Nat) = fun _ => 0 := funext fun a => by fin_cases a <;> rfl

/-- The windows' block indices at a grid point, relative to the output's (decided over the 32 points): the input rows move
    with the output's rows, the codebook rows and the sums with the output's columns. -/
theorem idx_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) < 8 ∧ win0_3.index t (1 : Fin 2) < 4 :=
  (by decide +kernel : ∀ t : Fin grid0.N, _)

/-- Every block of the result is some grid point's. -/
theorem idx_onto : ∀ (q0 : Fin 8) (q1 : Fin 4), ∃ t : Fin cfg0.N, win0_3.index t = ![q0.val, q1.val] :=
  (by decide +kernel : ∀ (q0 : Fin 8) (q1 : Fin 4), ∃ t : Fin grid0.N, win0_3.index t = ![q0.val, q1.val])

/-- Input row `p` of the cell at point `t` is row `r` of the input. -/
theorem inputBlock_apply (c : Dev nD) (t : Fin cfg0.N) (p : Fin 256) (k : Fin 512) (r : Fin 2048)
    (hr : r.val = win0_3.index t (0 : Fin 2) * 256 + p.val) :
    iblk m c 0 t (ix2 p k) = V m c main_arg0 (ix2 r k) := by
  obtain ⟨e0, e1, -⟩ := idx_facts t
  show V m c main_arg0 (((cfg0.win 0).blk t).view.emb (ix2 p k)) = V m c main_arg0 (ix2 r k)
  refine congrArg (V m c main_arg0) (funext fun a => Fin.ext ?_)
  match a with
  | ⟨0, _⟩ => show win0_0.index t (0 : Fin 2) * 256 + 1 * p.val = r.val; omega
  | ⟨1, _⟩ => show win0_0.index t (1 : Fin 2) * 512 + 1 * k.val = k.val; omega

/-- Codebook row `q` of the cell at point `t` is row `n` of the reshaped codebook. -/
theorem codeBlock_apply (c : Dev nD) (t : Fin cfg0.N) (q : Fin 4096) (k : Fin 512) (n : Fin 16384)
    (hn : n.val = win0_3.index t (1 : Fin 2) * 4096 + q.val) :
    iblk m c 1 t (ix2 q k) = V m c main_v0 (ix2 n k) := by
  obtain ⟨-, -, e2, e3, -⟩ := idx_facts t
  show V m c main_v0 (((cfg0.win 1).blk t).view.emb (ix2 q k)) = V m c main_v0 (ix2 n k)
  refine congrArg (V m c main_v0) (funext fun a => Fin.ext ?_)
  match a with
  | ⟨0, _⟩ => show win0_1.index t (0 : Fin 2) * 4096 + 1 * q.val = n.val; omega
  | ⟨1, _⟩ => show win0_1.index t (1 : Fin 2) * 512 + 1 * k.val = k.val; omega

/-- Entry `q` of the cell's piece of the row of sums is entry `n` of the row. -/
theorem sumsBlock_apply (c : Dev nD) (t : Fin cfg0.N) (q : Fin 4096) (n : Fin 16384)
    (hn : n.val = win0_3.index t (1 : Fin 2) * 4096 + q.val) :
    iblk m c 2 t (ix2 (0 : Fin 1) q) = V m c main_v3 (ix2 (0 : Fin 1) n) := by
  obtain ⟨-, -, -, -, e4, e5, -⟩ := idx_facts t
  show V m c main_v3 (((cfg0.win 2).blk t).view.emb (ix2 (0 : Fin 1) q)) = V m c main_v3 (ix2 (0 : Fin 1) n)
  refine congrArg (V m c main_v3) (funext fun a => Fin.ext ?_)
  match a with
  | ⟨0, _⟩ => show win0_2.index t (0 : Fin 2) * 1 + 1 * 0 = 0; omega
  | ⟨1, _⟩ => show win0_2.index t (1 : Fin 2) * 4096 + 1 * q.val = n.val; omega

/-! ## What a grid point writes back -/

/-- Point `t` writes back block `t` of the distance array of the input and the reshaped codebook. -/
theorem flushed_eq (c : Dev nD) (t : Fin cfg0.N) :
    (dats m 0 c).flushed 3 t
      = ((cfg0.win 3).blk t).view.read (Elt Ideal) (cim (V m c main_arg0) (V m c main_v0)) := by
  show (cfg0.win 3).cut (grid0.coords t) ((dats m 0 c).after 3 t) = _
  rw [after0_3]
  unfold out0_3
  rw [View.canon_unit_zero hz]
  simp only [View.ld_unit_zero (S := S256x512) hz, View.ld_unit_zero (S := S4096x512) hz,
    View.ld_unit_zero (S := S1x4096) hz]
  funext j
  obtain ⟨p, q, rfl⟩ : ∃ (p : Fin 256) (q : Fin 4096), j = ix2 p q := ⟨j 0, j 1, eq_ix2 j⟩
  obtain ⟨-, -, -, -, -, -, e6, e7⟩ := idx_facts t
  have hp : p.val < 256 := p.isLt
  have hq : q.val < 4096 := q.isLt
  obtain ⟨r, hr⟩ : ∃ r : Fin 2048, r.val = win0_3.index t (0 : Fin 2) * 256 + p.val := ⟨⟨_, by omega⟩, rfl⟩
  obtain ⟨n, hn⟩ : ∃ n : Fin 16384, n.val = win0_3.index t (1 : Fin 2) * 4096 + q.val := ⟨⟨_, by omega⟩, rfl⟩
  have hi : ((cfg0.win 3).blk t).view.emb (ix2 p q) = ix2 r n := funext fun a => Fin.ext (by
    match a with
    | ⟨0, _⟩ => show win0_3.index t (0 : Fin 2) * 256 + 1 * p.val = r.val; omega
    | ⟨1, _⟩ => show win0_3.index t (1 : Fin 2) * 4096 + 1 * q.val = n.val; omega)
  show k0_pay1 (iblk m c 0 t) (iblk m c 1 t) (iblk m c 2 t) (ix2 p q)
    = cim (V m c main_arg0) (V m c main_v0) (((cfg0.win 3).blk t).view.emb (ix2 p q))
  rw [hi]
  refine (Body.pay_apply (iblk m c 0 t) (iblk m c 1 t) (iblk m c 2 t) p q).trans ?_
  show cimOf _ _ _ = cimOf (rowSq (V m c main_arg0) r) (rowSq (V m c main_v0) n) (rowDot (V m c main_arg0) (V m c main_v0) r n)
  have h1 : rowSq (iblk m c 0 t) p = rowSq (V m c main_arg0) r := by
    unfold rowSq
    exact Finset.sum_congr rfl fun k _ => by rw [inputBlock_apply m c t p k r hr]
  have h2 : iblk m c 2 t (ix2 (0 : Fin 1) q) = rowSq (V m c main_v0) n := by
    rw [sumsBlock_apply m c t q n hn, V_codeSums]
    exact codeSums_entry _ n
  have h3 : rowDot (iblk m c 0 t) (iblk m c 1 t) p q = rowDot (V m c main_arg0) (V m c main_v0) r n := by
    unfold rowDot
    exact Finset.sum_congr rfl fun k _ => by rw [inputBlock_apply m c t p k r hr, codeBlock_apply m c t q k n hn]
  rw [h1, h2, h3]

/-! ## The cells tile the result -/

/-- An index of the result is in point `t`'s block iff each coordinate is in the block's range on its axis. -/
theorem mem_blk (t : Fin cfg0.N) (i : S2048x16384.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v4).slice (win0_3.rect t)).set ↔ _
  rw [View.set_slice_whole, Rect.mem_set_unit]
  exact Iff.rfl

/-- Every index of the result is in some point's block: row `r` and column `s` are in the block of the point whose
    block indices are `r / 256` and `s / 4096`. -/
theorem cover (i : S2048x16384.Idx) :
    ∃ t : Fin cfg0.N, (cfg0.win 3).flush t = true ∧ i ∈ ((cfg0.win 3).blk t).view.set := by
  have hi0 : (i 0).val < 2048 := (i 0).isLt
  have hi1 : (i 1).val < 16384 := (i 1).isLt
  obtain ⟨t, ht⟩ := idx_onto ⟨(i 0).val / 256, by omega⟩ ⟨(i 1).val / 4096, by omega⟩
  have q0 : win0_3.index t (0 : Fin 2) = (i 0).val / 256 := congrFun ht 0
  have q1 : win0_3.index t (1 : Fin 2) = (i 1).val / 4096 := congrFun ht 1
  refine ⟨t, flush0_3 t, ?_⟩
  rw [mem_blk]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 4096 ≤ (i 1).val ∧ (i 1).val < win0_3.index t (1 : Fin 2) * 4096 + 4096
    omega

/-- The result array after the kernel: the distance array of the input and the reshaped codebook. -/
theorem final (c : Dev nD) : (dats m 0 c).arrAt 3 cfg0.N = cim (V m c main_arg0) (V m c main_v0) :=
  (dats m 0 c).arrAt_eq_of_cover 3 (cim (V m c main_arg0) (V m c main_v0)) (fun t _ => flushed_eq m c t) cover

/-! ## The reshape after the kernel, and the run -/

/-- The reshape after the kernel: the program's result is the distance array reshaped to 2048 × 128 × 128. -/
theorem tail_eq (c : Dev nD) :
    Pipeline.afterTail₀ cfgs (dats m) 0 (V0 m) [hostOps1] c main_v5
      = shapeCast S2048x128x128 (cim (m ((c : Thread nD τ).loc main_arg0))
          (shapeCast S16384x512 (m ((c : Thread nD τ).loc main_arg1)) shapeCasts_S128x128x512_S16384x512))
          shapeCasts_S2048x16384_S2048x128x128 := by
  have hw := Pipeline.withArrays_arr spec0 launch0.win.arr_inj c (V0 m c) (fun w => (dats m 0 c).arrAt w cfg0.N) 3
  unfold Pipeline.afterTail₀
  show StableHlo.after hostOps1 _ (Proc.devRef .tc main_v5) = _
  after_results
  rw [← V_main_arg0 m c, ← V_codebook m c, ← final m c, ← hw]
  rfl

/-- The kernel's program, run: every weakly fair execution ends with the result at the reshaped distance array of the input
    and the reshaped codebook, and the two arguments as launched. -/
theorem run : θ_run defs (onTc (τ := τ) (main (F := Ideal))) ⟨m, fun _ => 0, ρ⟩ fun r => ∀ c : Dev nD,
      r.2.mem ((c : Thread nD τ).loc main_v5)
        = shapeCast S2048x128x128 (cim (m ((c : Thread nD τ).loc main_arg0))
            (shapeCast S16384x512 (m ((c : Thread nD τ).loc main_arg1)) shapeCasts_S128x128x512_S16384x512))
            shapeCasts_S2048x16384_S2048x128x128
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v5 (Pipeline.mem_restRefs_of main_v5 (by decide) (by decide))).trans (tail_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.Cim.Kernel

end
-- ==== Proof.RefRead.lean ====
/-
  The reference computes the distance array of `CimSpec`.

  Its program reshapes the codebook to 16384 rows, sums the squares of each input row and of each codebook row, multiplies
  the input by the transposed codebook, lays the input rows' sums down the columns and the codebook rows' sums along the
  rows, and applies the scalar map entry by entry. Read at an entry (b, n): the column of row sums gives row `b`'s sum of
  squares, the row of codebook sums gives row `n`'s, the product gives their inner product, each host sum starting from
  the word of zero. The last reshape to 2048 × 128 × 128 is left applied to the array.
-/
import proofs.«180959_j64536178590269_2_alg».proof.Proof.Gen.ReferenceIdeal.Read
import proofs.«180959_j64536178590269_2_alg».proof.Proof.CimSpec
import Idealize.ShloMosaic.Lib.ValueIdx
import Idealize.ShloMosaic.Lib.Pipeline.Value
import Idealize.ShloMosaic.PureOps.Ideal.Laws

noncomputable section

namespace Cert.Cim.Ref

open Idealize.ShloMosaic Idealize.ShloMosaic.ValueIdx
open Cert.ReferenceIdeal Cert.ReferenceIdeal.Gen Cert.ReferenceIdeal.Read

/-- The input rows' sums of squares laid down the columns: entry (b, n) is row `b`'s sum of squares. -/
theorem rowSums_apply (x0 : (⟨S2048x512, .f32⟩ : BufTy).Contents (Elt Ideal)) (i : S2048x16384.Idx) :
    val_main_v8 (F := Ideal) x0 i = rowSq x0 (i 0 : Fin 2048) := by
  rw [val_main_v8_apply, val_main_v6_apply, val_main_v2_apply]
  show Ideal.ofBits .f32 0x00000000#32 + _ = _
  rw [Ideal.ofBits_zero_f32, zero_add]
  unfold rowSq
  refine Finset.sum_congr rfl fun k _ => ?_
  have e : idx_main_v2 (idx_main_v6 (idx_main_v8 i)) k = ix2 (i 0 : Fin 2048) k :=
    funext fun a => Fin.ext (by match a with | ⟨0, _⟩ => rfl | ⟨1, _⟩ => rfl)
  rw [val_main_v1_apply, e]; rfl

/-- The codebook rows' sums of squares laid along the rows: entry (b, n) is codebook row `n`'s sum of squares. -/
theorem codeSums_apply (x1 : (⟨S128x128x512, .f32⟩ : BufTy).Contents (Elt Ideal)) (i : S2048x16384.Idx) :
    val_main_v9 (F := Ideal) x1 i = rowSq (val_main_v0 (F := Ideal) x1) (i 1 : Fin 16384) := by
  rw [val_main_v9_apply, val_main_v7_apply, val_main_v4_apply]
  show Ideal.ofBits .f32 0x00000000#32 + _ = _
  rw [Ideal.ofBits_zero_f32, zero_add]
  unfold rowSq
  refine Finset.sum_congr rfl fun k _ => ?_
  have e : idx_main_v4 (idx_main_v7 (idx_main_v9 i)) k = ix2 (i 1 : Fin 16384) k :=
    funext fun a => Fin.ext (by match a with | ⟨0, _⟩ => rfl | ⟨1, _⟩ => rfl)
  rw [val_main_v3_apply, e]; rfl

/-- The product of the input with the transposed codebook: entry (b, n) is the inner product of the two rows. -/
theorem cross_apply (x0 : (⟨S2048x512, .f32⟩ : BufTy).Contents (Elt Ideal))
    (x1 : (⟨S128x128x512, .f32⟩ : BufTy).Contents (Elt Ideal)) (i : S2048x16384.Idx) :
    val_main_v5 (F := Ideal) x0 x1 i = rowDot x0 (val_main_v0 (F := Ideal) x1) (i 0 : Fin 2048) (i 1 : Fin 16384) := by
  rw [val_main_v5_apply]
  unfold rowDot
  refine Finset.sum_congr rfl fun k _ => ?_
  have el : lidx_main_v5 i k = ix2 (i 0 : Fin 2048) k :=
    funext fun a => Fin.ext (by match a with | ⟨0, _⟩ => rfl | ⟨1, _⟩ => rfl)
  have er : ridx_main_v5 i k = ix2 (i 1 : Fin 16384) k :=
    funext fun a => Fin.ext (by match a with | ⟨0, _⟩ => rfl | ⟨1, _⟩ => rfl)
  rw [el, er]
  rfl

/-- The reference's array before its last reshape is the distance array of the input and the reshaped codebook. -/
theorem ref_eq_cim (x0 : (⟨S2048x512, .f32⟩ : BufTy).Contents (Elt Ideal))
    (x1 : (⟨S128x128x512, .f32⟩ : BufTy).Contents (Elt Ideal)) :
    val_main_v24 (F := Ideal) x0 x1 = cim x0 (val_main_v0 (F := Ideal) x1) := by
  funext i
  rw [val_main_v24_apply, val_main_v23_apply, val_main_v22_apply, val_main_cst_5_apply, val_main_v21_apply,
    val_main_v20_apply, val_main_cst_4_apply, val_main_v19_apply, val_main_v18_apply, val_main_v17_apply,
    val_main_cst_3_apply, val_main_v16_apply, val_main_v15_apply, val_main_v14_apply, val_main_cst_2_apply,
    val_main_v13_apply, val_main_v12_apply, val_main_v11_apply, val_main_cst_1_apply, val_main_v10_apply,
    rowSums_apply, codeSums_apply, cross_apply]
  rfl

end Cert.Cim.Ref

end
-- ==== Proof.lean ====
/-
  The kernel and its reference compute the same correntropy-induced distances.

  Both programs take an input of 2048 rows and a codebook of 128 × 128 rows of width 512, reshape the codebook to 16384
  rows, and produce, for every input row b and codebook row n,
      sqrt (1 - exp (-(max (|x_b|^2 + |w_n|^2 - 2 <x_b, w_n>) 0) / 2) + eps),
  reshaped to 2048 × 128 × 128. The reference does so with whole-array operations on the host (`Proof/RefRead.lean`); the
  kernel computes the codebook rows' sums of squares on the host and the rest cell by cell over a 4 × 8 grid
  (`Proof/BlockBody.lean` for one cell, `Proof/KernelArray.lean` for the whole array and the last reshape). On the extended
  reals the two differ only in spelling: a sum that starts from the word of zero or from nothing, a product into a zero
  accumulator or with none, a change of float format that is the identity, and `(0 - y) * (1/2)` against `(-y) / 2`, which
  agree at the infinities too (`Proof/CimSpec.lean`). No law used needs the inputs to be finite, so the precondition is never
  opened. The idealized kernel is the kernel's own text read over the extended reals: no rewrite was applied to it.
-/
import proofs.«180959_j64536178590269_2_alg».proof.Defs
import proofs.«180959_j64536178590269_2_alg».proof.Proof.Gen.Kernel
import proofs.«180959_j64536178590269_2_alg».proof.Proof.Gen.Kernel.Frame
import proofs.«180959_j64536178590269_2_alg».proof.Proof.Gen.KernelIdeal
import proofs.«180959_j64536178590269_2_alg».proof.Proof.Gen.KernelIdeal.Frame
import proofs.«180959_j64536178590269_2_alg».proof.Proof.Gen.ReferenceIdeal
import proofs.«180959_j64536178590269_2_alg».proof.Proof.Gen.ReferenceIdeal.Run
import proofs.«180959_j64536178590269_2_alg».proof.Proof.Gen.ReferenceIdeal.Read
import proofs.«180959_j64536178590269_2_alg».proof.Proof.Gen.Pre_finite_inputs
import proofs.«180959_j64536178590269_2_alg».proof.Proof.KernelArray
import proofs.«180959_j64536178590269_2_alg».proof.Proof.RefRead
import Idealize.ShloMosaic.Adequacy
import Idealize.ShloMosaic.Init

noncomputable section

namespace Cert.Proof

open Idealize.ShloMosaic Idealize.ShloMosaic.TcCoe Idealize.SL.Sem

/-- The kernel as printed terminates without a fault and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the two arguments, both programs end with the reshaped distance array of the input and
    the reshaped codebook. -/
theorem algebraic : Cert.algebraic_KernelIdeal_ReferenceIdeal := by
  intro m ρ m' ρ' _ hagree
  refine ⟨_, Cert.Cim.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq]
  unfold Cert.ReferenceIdeal.Read.val_main_v25
  rw [Cert.Cim.Ref.ref_eq_cim]
  unfold Cert.ReferenceIdeal.Read.val_main_v0
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
